-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x300x512 : Shape := ⟨3, ![16, 300, 512]⟩
abbrev S16x30x512 : Shape := ⟨3, ![16, 30, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S16x300x512 : S_.BroadcastsInDim S16x300x512 (![] : Fin 0 → Fin S16x300x512.rank)
  reducesTo_S16x300x512_S_d0_1_2 : S16x300x512.ReducesTo [0, 1, 2] S_
  h_S_ : 0 < S_.numel
  bcast_S_S16x30x512 : S_.BroadcastsInDim S16x30x512 (![] : Fin 0 → Fin S16x30x512.rank)
  reducesTo_S16x30x512_S_d0_1_2 : S16x30x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S16x300x512 .f32) (main_arg1 : FVec F S16x30x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S16x300x512 .f32 := Host.absf main_arg0
  let main_cst : FVec F S_ .f32 := constant S_ .f32 0x7F800000#32
  let main_v1 : FVec F S16x300x512 .f32 := broadcastInDim S16x300x512 ![] bcast_S_S16x300x512 main_cst
  let main_v2 : IVec S16x300x512 1 := cmpf .olt main_v0 main_v1
  let main_c : IVec S_ 1 := constantI S_ 1 1#1
  let main_v3 : IVec S_ 1 := (fun x v => Host.reduce IntOp.andi x v reducesTo_S16x300x512_S_d0_1_2 h_S_) main_v2 main_c
  let main_v4 : FVec F S16x30x512 .f32 := Host.absf main_arg1
  let main_cst_0 : FVec F S_ .f32 := constant S_ .f32 0x7F800000#32
  let main_v5 : FVec F S16x30x512 .f32 := broadcastInDim S16x30x512 ![] bcast_S_S16x30x512 main_cst_0
  let main_v6 : IVec S16x30x512 1 := cmpf .olt main_v4 main_v5
  let main_c_1 : IVec S_ 1 := constantI S_ 1 1#1
  let main_v7 : IVec S_ 1 := (fun x v => Host.reduce IntOp.andi x v reducesTo_S16x30x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S16x300x512 : Shape := ⟨3, ![16, 300, 512]⟩
abbrev S16x30x512 : Shape := ⟨3, ![16, 30, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S16x300x30x500 : Shape := ⟨4, ![16, 300, 30, 500]⟩
abbrev S1x152x512 : Shape := ⟨3, ![1, 152, 512]⟩
abbrev S1x30x512 : Shape := ⟨3, ![1, 30, 512]⟩
abbrev S1x152x30x500 : Shape := ⟨4, ![1, 152, 30, 500]⟩
abbrev S152x512 : Shape := ⟨2, ![152, 512]⟩
abbrev S30x512 : Shape := ⟨2, ![30, 512]⟩
abbrev S1x512 : Shape := ⟨2, ![1, 512]⟩
abbrev S152x500 : Shape := ⟨2, ![152, 500]⟩
abbrev S30x500 : Shape := ⟨2, ![30, 500]⟩
abbrev S152x1x500 : Shape := ⟨3, ![152, 1, 500]⟩
abbrev S1x30x500 : Shape := ⟨3, ![1, 30, 500]⟩
abbrev S152x30x500 : Shape := ⟨3, ![152, 30, 500]⟩
abbrev S1x1x500 : Shape := ⟨3, ![1, 1, 500]⟩

abbrev nBuf : Space → Nat
  | .hbm => 12
  | .vmem => 12
  | .smem => 0
  | _ => 0

abbrev bufTy : (tb : Table) → Fin (tcTables nBuf tb) → BufTy
  | .hbm, ⟨0, _⟩ => ⟨S16x300x512, .f32⟩
  | .hbm, ⟨1, _⟩ => ⟨S16x30x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S512x512, .bf16⟩
  | .hbm, ⟨9, _⟩ => ⟨S512x512, .bf16⟩
  | .hbm, ⟨10, _⟩ => ⟨S500x512, .bf16⟩
  | .hbm, ⟨11, _⟩ => ⟨S16x300x30x500, .f32⟩
  | .local _ .vmem, ⟨0, _⟩ => ⟨S1x152x512, .f32⟩
  | .local _ .vmem, ⟨1, _⟩ => ⟨S1x152x512, .f32⟩
  | .local _ .vmem, ⟨2, _⟩ => ⟨S1x30x512, .f32⟩
  | .local _ .vmem, ⟨3, _⟩ => ⟨S1x30x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S500x512, .bf16⟩
  | .local _ .vmem, ⟨9, _⟩ => ⟨S500, .f32⟩
  | .local _ .vmem, ⟨10, _⟩ => ⟨S1x152x30x500, .f32⟩
  | .local _ .vmem, ⟨11, _⟩ => ⟨S1x152x30x500, .f32⟩
  | _, _ => ⟨S16x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x152x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S500x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x152x30x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x152x512_S1x152x512_0_0_0 : ∀ a, (![0, 0, 0] : Fin 3 → Nat) a + S1x152x512.size a ≤ S1x152x512.size a
  h_S1x152x512 : 0 < S1x152x512.numel
  shapeCasts_S1x152x512_S152x512 : S1x152x512.ShapeCasts S152x512
  inb_S1x30x512_S1x30x512_0_0_0 : ∀ a, (![0, 0, 0] : Fin 3 → Nat) a + S1x30x512.size a ≤ S1x30x512.size a
  h_S1x30x512 : 0 < S1x30x512.numel
  shapeCasts_S1x30x512_S30x512 : S1x30x512.ShapeCasts S30x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S500x512_S500x512_0_0 : ∀ a, (![0, 0] : Fin 2 → Nat) a + S500x512.size a ≤ S500x512.size a
  h_S500x512 : 0 < S500x512.numel
  shapeCasts_S500x512_S500x512 : S500x512.ShapeCasts S500x512
  inb_S512_S512_0 : ∀ a, (![0] : Fin 1 → Nat) a + S512.size a ≤ S512.size a
  h_S512 : 0 < S512.numel
  inb_S500_S500_0 : ∀ a, (![0] : Fin 1 → Nat) a + S500.size a ≤ S500.size a
  h_S500 : 0 < S500.numel
  shapeCasts_S512_S1x512 : S512.ShapeCasts S1x512
  broadcasts_S1x512_S152x512 : S1x512.Broadcasts S152x512
  broadcasts_S1x512_S30x512 : S1x512.Broadcasts S30x512
  shapeCasts_S152x500_S152x1x500 : S152x500.ShapeCasts S152x1x500
  shapeCasts_S30x500_S1x30x500 : S30x500.ShapeCasts S1x30x500
  broadcasts_S152x1x500_S152x30x500 : S152x1x500.Broadcasts S152x30x500
  broadcasts_S1x30x500_S152x30x500 : S1x30x500.Broadcasts S152x30x500
  shapeCasts_S500_S1x1x500 : S500.ShapeCasts S1x1x500
  broadcasts_S1x1x500_S152x30x500 : S1x1x500.Broadcasts S152x30x500
  inb_S1x152x30x500_S1x152x30x500_0_0_0_0 : ∀ a, (![0, 0, 0, 0] : Fin 4 → Nat) a + S1x152x30x500.size a ≤ S1x152x30x500.size a
  h_S1x152x30x500 : 0 < S1x152x30x500.numel
  shapeCasts_S1x152x30x500_S152x30x500 : S1x152x30x500.ShapeCasts S152x30x500
  shapeCasts_S152x30x500_S1x152x30x500 : S152x30x500.ShapeCasts S1x152x30x500
  dot_S152x512_S512x512_S152x512_1_1_0_0_n_n_wf : DotDims.WF S152x512 S512x512 S152x512 [1] [1] [0] [0] [] []
  dot_S30x512_S512x512_S30x512_1_1_0_0_n_n_wf : DotDims.WF S30x512 S512x512 S30x512 [1] [1] [0] [0] [] []
  dot_S152x512_S500x512_S152x500_1_1_0_0_n_n_wf : DotDims.WF S152x512 S500x512 S152x500 [1] [1] [0] [0] [] []
  dot_S30x512_S500x512_S30x500_1_1_0_0_n_n_wf : DotDims.WF S30x512 S500x512 S30x500 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x152x512.size a < S16x300x512.size a
  hwx0_0 : ∀ i : grid0.Coords, EltTy.bits .f32 = 32 ∨ (Rect.unit (s := S16x300x512) (fun a => cc0_transform_0 i a * S1x152x512.size a) (fun a => (Pipeline.Clip.of (cc0_transform_0 i a) (S1x152x512.size a) (S16x300x512.size a)).extent (S1x152x512.size a)) fun a => Pipeline.Clip.inb (Pipeline.Clip.ok_of (hstart0_0 i a))).WholeWords (EltTy.packing .f32)
  hwxs0_0 : ∀ i : grid0.Coords, EltTy.bits .f32 = 32 ∨ (Rect.unit (s := S1x152x512) (fun _ => 0) (fun a => (Pipeline.Clip.of (cc0_transform_0 i a) (S1x152x512.size a) (S16x300x512.size a)).extent (S1x152x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x30x512.size a ≤ S16x30x512.size a
  hwx0_1 : ∀ i : grid0.Coords, EltTy.bits .f32 = 32 ∨ (Rect.block (s := S16x30x512) S1x30x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x512.size a ≤ S500x512.size a
  hwx0_6 : ∀ i : grid0.Coords, EltTy.bits .bf16 = 32 ∨ (Rect.block (s := S500x512) S500x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1x152x30x500.size a < S16x300x30x500.size a
  hwx0_8 : ∀ i : grid0.Coords, EltTy.bits .f32 = 32 ∨ (Rect.unit (s := S16x300x30x500) (fun a => cc0_transform_8 i a * S1x152x30x500.size a) (fun a => (Pipeline.Clip.of (cc0_transform_8 i a) (S1x152x30x500.size a) (S16x300x30x500.size a)).extent (S1x152x30x500.size a)) fun a => Pipeline.Clip.inb (Pipeline.Clip.ok_of (hstart0_8 i a))).WholeWords (EltTy.packing .f32)
  hwxs0_8 : ∀ i : grid0.Coords, EltTy.bits .f32 = 32 ∨ (Rect.unit (s := S1x152x30x500) (fun _ => 0) (fun a => (Pipeline.Clip.of (cc0_transform_8 i a) (S1x152x30x500.size a) (S16x300x30x500.size a)).extent (S1x152x30x500.size a)) fun a => (Nat.zero_add _).trans_le (Pipeline.Clip.extent_le (Pipeline.Clip.ok_of (hstart0_8 i a)))).WholeWords (EltTy.packing .f32)

variable [Facts₀]

def dot_S152x512_S512x512_S152x512_1_1_0_0_n_n : DotDims S152x512 S512x512 S152x512 where
  lhsContracting := [1]
  rhsContracting := [1]
  lhsNonContracting := [0]
  rhsNonContracting := [0]
  lhsBatch := []
  rhsBatch := []
  wf := dot_S152x512_S512x512_S152x512_1_1_0_0_n_n_wf
def dot_S30x512_S512x512_S30x512_1_1_0_0_n_n : DotDims S30x512 S512x512 S30x512 where
  lhsContracting := [1]
  rhsContracting := [1]
  lhsNonContracting := [0]
  rhsNonContracting := [0]
  lhsBatch := []
  rhsBatch := []
  wf := dot_S30x512_S512x512_S30x512_1_1_0_0_n_n_wf
def dot_S152x512_S500x512_S152x500_1_1_0_0_n_n : DotDims S152x512 S500x512 S152x500 where
  lhsContracting := [1]
  rhsContracting := [1]
  lhsNonContracting := [0]
  rhsNonContracting := [0]
  lhsBatch := []
  rhsBatch := []
  wf := dot_S152x512_S500x512_S152x500_1_1_0_0_n_n_wf
def dot_S30x512_S500x512_S30x500_1_1_0_0_n_n : DotDims S30x512 S500x512 S30x500 where
  lhsContracting := [1]
  rhsContracting := [1]
  lhsNonContracting := [0]
  rhsNonContracting := [0]
  lhsBatch := []
  rhsBatch := []
  wf := dot_S30x512_S500x512_S30x500_1_1_0_0_n_n_wf

abbrev win0_0 : Pipeline.Window sig grid0 :=
  Pipeline.Window.ofSpecClip (Memref.whole main_arg0) S1x152x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1x30x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S500x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v3) S1x152x30x500.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x300x512 : Shape := ⟨3, ![16, 300, 512]⟩
abbrev S16x30x512 : Shape := ⟨3, ![16, 30, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S16x300x1x512 : Shape := ⟨4, ![16, 300, 1, 512]⟩
abbrev S16x1x30x512 : Shape := ⟨4, ![16, 1, 30, 512]⟩
abbrev S16x300x30x512 : Shape := ⟨4, ![16, 300, 30, 512]⟩
abbrev S16x300x30x500 : Shape := ⟨4, ![16, 300, 30, 500]⟩
abbrev S1x1x1x500 : Shape := ⟨4, ![1, 1, 1, 500]⟩

abbrev nBuf : Space → Nat
  | .hbm => 25
  | .vmem => 0
  | .smem => 0
  | _ => 0

abbrev bufTy : (tb : Table) → Fin (tcTables nBuf tb) → BufTy
  | .hbm, ⟨0, _⟩ => ⟨S16x300x512, .f32⟩
  | .hbm, ⟨1, _⟩ => ⟨S16x30x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S16x300x512, .f32⟩
  | .hbm, ⟨9, _⟩ => ⟨S1x1x512, .f32⟩
  | .hbm, ⟨10, _⟩ => ⟨S16x300x512, .f32⟩
  | .hbm, ⟨11, _⟩ => ⟨S16x300x512, .f32⟩
  | .hbm, ⟨12, _⟩ => ⟨S16x30x512, .f32⟩
  | .hbm, ⟨13, _⟩ => ⟨S1x1x512, .f32⟩
  | .hbm, ⟨14, _⟩ => ⟨S16x30x512, .f32⟩
  | .hbm, ⟨15, _⟩ => ⟨S16x30x512, .f32⟩
  | .hbm, ⟨16, _⟩ => ⟨S16x300x1x512, .f32⟩
  | .hbm, ⟨17, _⟩ => ⟨S16x1x30x512, .f32⟩
  | .hbm, ⟨18, _⟩ => ⟨S16x300x30x512, .f32⟩
  | .hbm, ⟨19, _⟩ => ⟨S16x300x30x512, .f32⟩
  | .hbm, ⟨20, _⟩ => ⟨S16x300x30x512, .f32⟩
  | .hbm, ⟨21, _⟩ => ⟨S16x300x30x500, .f32⟩
  | .hbm, ⟨22, _⟩ => ⟨S1x1x1x500, .f32⟩
  | .hbm, ⟨23, _⟩ => ⟨S16x300x30x500, .f32⟩
  | .hbm, ⟨24, _⟩ => ⟨S16x300x30x500, .f32⟩
  | _, _ => ⟨S16x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x300x512_0_1_2 : S1x1x512.BroadcastsInDim S16x300x512 (![0, 1, 2] : Fin 3 → Fin S16x300x512.rank)
  bcast_S1x1x512_S16x30x512_0_1_2 : S1x1x512.BroadcastsInDim S16x30x512 (![0, 1, 2] : Fin 3 → Fin S16x30x512.rank)
  bcast_S16x300x512_S16x300x1x512_0_1_3 : S16x300x512.BroadcastsInDim S16x300x1x512 (![0, 1, 3] : Fin 3 → Fin S16x300x1x512.rank)
  bcast_S16x30x512_S16x1x30x512_0_2_3 : S16x30x512.BroadcastsInDim S16x1x30x512 (![0, 2, 3] : Fin 3 → Fin S16x1x30x512.rank)
  bcast_S16x300x1x512_S16x300x30x512_0_1_2_3 : S16x300x1x512.BroadcastsInDim S16x300x30x512 (![0, 1, 2, 3] : Fin 4 → Fin S16x300x30x512.rank)
  bcast_S16x1x30x512_S16x300x30x512_0_1_2_3 : S16x1x30x512.BroadcastsInDim S16x300x30x512 (![0, 1, 2, 3] : Fin 4 → Fin S16x300x30x512.rank)
  bcast_S500_S1x1x1x500_3 : S500.BroadcastsInDim S1x1x1x500 (![3] : Fin 1 → Fin S1x1x1x500.rank)
  bcast_S1x1x1x500_S16x300x30x500_0_1_2_3 : S1x1x1x500.BroadcastsInDim S16x300x30x500 (![0, 1, 2, 3] : Fin 4 → Fin S16x300x30x500.rank)
  dot_S16x300x512_S512x512_S16x300x512_2_1_01_0_n_n_wf : DotDims.WF S16x300x512 S512x512 S16x300x512 [2] [1] [0, 1] [0] [] []
  dot_S16x30x512_S512x512_S16x30x512_2_1_01_0_n_n_wf : DotDims.WF S16x30x512 S512x512 S16x30x512 [2] [1] [0, 1] [0] [] []
  dot_S16x300x30x512_S500x512_S16x300x30x500_3_1_012_0_n_n_wf : DotDims.WF S16x300x30x512 S500x512 S16x300x30x500 [3] [1] [0, 1, 2] [0] [] []

variable [Facts₀]

def dot_S16x300x512_S512x512_S16x300x512_2_1_01_0_n_n : DotDims S16x300x512 S512x512 S16x300x512 where
  lhsContracting := [2]
  rhsContracting := [1]
  lhsNonContracting := [0, 1]
  rhsNonContracting := [0]
  lhsBatch := []
  rhsBatch := []
  wf := dot_S16x300x512_S512x512_S16x300x512_2_1_01_0_n_n_wf
def dot_S16x30x512_S512x512_S16x30x512_2_1_01_0_n_n : DotDims S16x30x512 S512x512 S16x30x512 where
  lhsContracting := [2]
  rhsContracting := [1]
  lhsNonContracting := [0, 1]
  rhsNonContracting := [0]
  lhsBatch := []
  rhsBatch := []
  wf := dot_S16x30x512_S512x512_S16x30x512_2_1_01_0_n_n_wf
def dot_S16x300x30x512_S500x512_S16x300x30x500_3_1_012_0_n_n : DotDims S16x300x30x512 S500x512 S16x300x30x500 where
  lhsContracting := [3]
  rhsContracting := [1]
  lhsNonContracting := [0, 1, 2]
  rhsNonContracting := [0]
  lhsBatch := []
  rhsBatch := []
  wf := dot_S16x300x30x512_S500x512_S16x300x30x500_3_1_012_0_n_n_wf

class Facts : Prop extends Facts₀ where

variable [Facts]
-- ==== Proof.BodyK.lean ====
/-
  The joiner kernel's body as a Hoare triple, for any float instance.

  The body reads its eight input buffers whole — an encoder block [1,152,512], a decoder block [1,30,512],
  the three weight matrices and the three bias vectors —, computes, and overwrites its output buffer
  [1,152,30,500] whole with one store. So after the body the output buffer is ONE function `out8` of the
  eight input buffers' contents, whatever it held before, and the inputs hold what they held.
-/
import proofs.«135892_j6803228197541_2_alg».proof.Proof.Gen.Kernel.Frame
import proofs.«135892_j6803228197541_2_alg».proof.Proof.Gen.Kernel.Skeleton
import Idealize.ShloMosaic.Lib.Pipeline.FrameBody
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one the whole buffer -/

abbrev rEnc : Rect S1x152x512 := Rect.unit (s := S1x152x512) ![0, 0, 0] S1x152x512.size inb_S1x152x512_S1x152x512_0_0_0
abbrev rDec : Rect S1x30x512 := Rect.unit (s := S1x30x512) ![0, 0, 0] S1x30x512.size inb_S1x30x512_S1x30x512_0_0_0
abbrev rW : Rect S512x512 := Rect.unit (s := S512x512) ![0, 0] S512x512.size inb_S512x512_S512x512_0_0
abbrev rWo : Rect S500x512 := Rect.unit (s := S500x512) ![0, 0] S500x512.size inb_S500x512_S500x512_0_0
abbrev rB : Rect S512 := Rect.unit (s := S512) ![0] S512.size inb_S512_S512_0
abbrev rBo : Rect S500 := Rect.unit (s := S500) ![0] S500.size inb_S500_S500_0
abbrev rOut : Rect S1x152x30x500 := Rect.unit (s := S1x152x30x500) ![0, 0, 0, 0] S1x152x30x500.size inb_S1x152x30x500_S1x152x30x500_0_0_0_0

/-! ## What the body leaves in the output buffer -/

/-- The output buffer after the body, from the eight input buffers' contents (in the order of the kernel's
    operands: encoder block, decoder block, W_enc, b_enc, W_dec, b_dec, W_out, b_out): its one whole store. -/
def out8 (x0 : Vec F S1x152x512 .f32) (x1 : Vec F S1x30x512 .f32) (x2 : Vec F S512x512 .bf16) (x3 : Vec F S512 .f32)
    (x4 : Vec F S512x512 .bf16) (x5 : Vec F S512 .f32) (x6 : Vec F S500x512 .bf16) (x7 : Vec F S500 .f32) :
    Vec F S1x152x30x500 .f32 :=
  View.canon [⟨rOut, k0_pay1 (k0_pay2 (View.ld x0 rEnc) (View.ld x1 rDec) (View.ld x2 rW) (View.ld x4 rW) (View.ld x6 rWo)
    (View.ld x3 rB) (View.ld x5 rB) (View.ld x7 rBo))⟩]

/-- The one store covers the buffer. -/
theorem cover8 (p0 : Vec F S1x152x30x500 .f32) (y : S1x152x30x500.Idx) :
    ∃ pc ∈ ([⟨rOut, p0⟩] : List (View.Piece (Elt F) S1x152x30x500 .f32)), y ∈ pc.1.set :=
  View.cover_of_tiled [⟨rOut, p0⟩] S1x152x30x500.size (by rfl) y

/-! ## The body's triple -/

set_option maxHeartbeats 2000000 in
/-- The body on whole buffers, the inputs at contents `x0 … x7` and the output at anything, runs to the
    continuation holding the inputs as they were and the output at `out8` of them. -/
theorem sound_kernel (c : Dev nD) (E : Set ℕ) (i : grid0.Coords)
    (a0 : Memref sig .tc .vmem S1x152x512 .f32) (h0 : a0.IsWhole) (a1 : Memref sig .tc .vmem S1x30x512 .f32) (h1 : a1.IsWhole)
    (a2 : Memref sig .tc .vmem S512x512 .bf16) (h2 : a2.IsWhole) (a3 : Memref sig .tc .vmem S512 .f32) (h3 : a3.IsWhole)
    (a4 : Memref sig .tc .vmem S512x512 .bf16) (h4 : a4.IsWhole) (a5 : Memref sig .tc .vmem S512 .f32) (h5 : a5.IsWhole)
    (a6 : Memref sig .tc .vmem S500x512 .bf16) (h6 : a6.IsWhole) (a7 : Memref sig .tc .vmem S500 .f32) (h7 : a7.IsWhole)
    (a8 : Memref sig .tc .vmem S1x152x30x500 .f32) (h8 : a8.IsWhole)
    (x0 : Vec F S1x152x512 .f32) (x1 : Vec F S1x30x512 .f32) (x2 : Vec F S512x512 .bf16) (x3 : Vec F S512 .f32)
    (x4 : Vec F S512x512 .bf16) (x5 : Vec F S512 .f32) (x6 : Vec F S500x512 .bf16) (x7 : Vec F S500 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (out8 x0 x1 x2 x3 x4 x5 x6 x7)) -∗ K ⟨⟩))
      ⊢ wp frame (wpE (defs₀ (F := F)) Variants.none c none) E
          (cc0__joiner_kernel i a0 h0 a1 h1 a2 h2 a3 h3 a4 h4 a5 h5 a6 h6 a7 h7 a8 h8) K := by
  simp only [cc0__joiner_kernel_eq_skeleton]; unfold cc0__joiner_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-- Every access is the whole buffer at offset zero, so the canonical form of the one store is its payload and
    each load reads the buffer's contents: the output buffer ends at the body's arithmetic of the eight inputs. -/
theorem out8_eq (x0 : Vec F S1x152x512 .f32) (x1 : Vec F S1x30x512 .f32) (x2 : Vec F S512x512 .bf16) (x3 : Vec F S512 .f32)
    (x4 : Vec F S512x512 .bf16) (x5 : Vec F S512 .f32) (x6 : Vec F S500x512 .bf16) (x7 : Vec F S500 .f32) :
    out8 x0 x1 x2 x3 x4 x5 x6 x7 = k0_pay1 (k0_pay2 x0 x1 x2 x4 x6 x3 x5 x7) := by
  have hz4 : (![0, 0, 0, 0] : Fin 4 → Nat) = fun _ => 0 := funext fun a => by fin_cases a <;> rfl
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a; rfl
  unfold out8
  rw [View.canon_unit_zero hz4]
  simp only [View.ld_unit_zero (S := S1x152x512) hz3, View.ld_unit_zero (S := S1x30x512) hz3,
    View.ld_unit_zero (S := S512x512) hz2, View.ld_unit_zero (S := S500x512) hz2,
    View.ld_unit_zero (S := S512) hz1, View.ld_unit_zero (S := S500) hz1]

end Cert.Kernel.Body

end
-- ==== Proof.FrameK.lean ====
/-
  The frame of the word-level kernel: it runs to the end, faults nowhere, and leaves its arguments unchanged.

  Nothing here says what the result holds: the result window is FORGOTTEN (its buffer is handed to the body at any
  contents and taken back at any contents). The encoder window's last block overhangs the array by four rows, so
  its buffer is described only on the rows the transfers move: the body finds there the array's block, and past the
  array's end words nothing names; it leaves the buffer as it found it. Every other input buffer holds its block,
  fetched at this point or kept from an earlier one.
-/
import proofs.«135892_j6803228197541_2_alg».proof.Proof.BodyK
import Idealize.ShloMosaic.Lib.Pipeline.Frame
import Idealize.ShloMosaic.Lib.Pipeline.Cells

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window nothing is said of: the result's. -/
def forgets : Fin 9 → Bool := fun w => w.val == 8

/-- The encoder window's buffer after the body, on the rows inside the array: the array's block; past the array's
    end (tile 1's last four rows) the zero word, which nothing reads. -/
def encBuf (c : Dev nD) (t : Fin cfg0.N) : S1x152x512.Idx → Elt F .f32 :=
  win0_0.fill (grid0.coords t) (fun _ => Scalar.ofBits .f32 0#32) (iblk m c 0 t)

/-- The proof data on core `c`: the arrays as the region finds them; after the body each input buffer at its block
    (the encoder's filled out past the array's end), the result's unnamed; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => encBuf m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = encBuf m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- The encoder window is fetched at every point: the body finds the array's block on the rows the fetch fills and,
    past the array's end, whatever the buffer held (`d`). -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]

/-- Every other input buffer holds its block at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: the invariant, what the core owes, each input buffer at what it then
    holds, the result's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- What it returns: the encoder window's buffer stated on the rows its transfers move, the other inputs' at their
    blocks, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

/-- The body at any point: the input buffers hold what `before0_W` says, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show win0_0.cut (grid0.coords t) (encBuf m c t) = iblk m c 0 t from win0_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩⟩
  iapply (sound_kernel c Set.univ _ _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The library's body obligation, the result window forgotten, at every point. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates; every input array of the pipeline ends unchanged and every other
    unscoped buffer at its region-entry contents; nothing is said of the result. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- An input array's final contents, read off the relational post: its entry contents. -/
theorem arr_in (c : Dev nD) (w : Fin cfg0.W) (hw : (cfg0.win w).isOut = false)
    (X : Buf (Elt F) ((cfg0.win w).arr.view.loc (c.tc : Thread nD τ)))
    (h : ((dats m 0 c).toRForget forgets).ArrAt w cfg0.N X) : X = V m c (Pipeline.arrRef spec0 w) := by
  rw [RDat.ArrAt_in _ w hw] at h
  exact (show X = ((dats m 0 c).toRForget forgets).A w from h).trans (A_eq m c w)

/-- THE FRAME, at any float instance: the eight arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(arr_in m c 0 rfl _ ((h c).1 0)).trans (V_main_arg0 m c),
      (arr_in m c 1 rfl _ ((h c).1 1)).trans (V_main_arg1 m c),
      ((h c).2 main_arg2 (Pipeline.mem_restRefs_of main_arg2 (by decide) (by decide))).trans (V_main_arg2 m c),
      (arr_in m c 3 rfl _ ((h c).1 3)).trans (V_main_arg3 m c),
      ((h c).2 main_arg4 (Pipeline.mem_restRefs_of main_arg4 (by decide) (by decide))).trans (V_main_arg4 m c),
      (arr_in m c 5 rfl _ ((h c).1 5)).trans (V_main_arg5 m c),
      ((h c).2 main_arg6 (Pipeline.mem_restRefs_of main_arg6 (by decide) (by decide))).trans (V_main_arg6 m c),
      (arr_in m c 7 rfl _ ((h c).1 7)).trans (V_main_arg7 m c)⟩) (run_main m ρ)

end Cert.Kernel.Body

end
-- ==== Proof.BodyI.lean ====
/-
  The joiner kernel's body as a Hoare triple, for any float instance.

  The body reads its eight input buffers whole — an encoder block [1,152,512], a decoder block [1,30,512],
  the three weight matrices and the three bias vectors —, computes, and overwrites its output buffer
  [1,152,30,500] whole with one store. So after the body the output buffer is ONE function `out8` of the
  eight input buffers' contents, whatever it held before, and the inputs hold what they held.
-/
import proofs.«135892_j6803228197541_2_alg».proof.Proof.Gen.KernelIdeal.Frame
import proofs.«135892_j6803228197541_2_alg».proof.Proof.Gen.KernelIdeal.Skeleton
import Idealize.ShloMosaic.Lib.Pipeline.FrameBody
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one the whole buffer -/

abbrev rEnc : Rect S1x152x512 := Rect.unit (s := S1x152x512) ![0, 0, 0] S1x152x512.size inb_S1x152x512_S1x152x512_0_0_0
abbrev rDec : Rect S1x30x512 := Rect.unit (s := S1x30x512) ![0, 0, 0] S1x30x512.size inb_S1x30x512_S1x30x512_0_0_0
abbrev rW : Rect S512x512 := Rect.unit (s := S512x512) ![0, 0] S512x512.size inb_S512x512_S512x512_0_0
abbrev rWo : Rect S500x512 := Rect.unit (s := S500x512) ![0, 0] S500x512.size inb_S500x512_S500x512_0_0
abbrev rB : Rect S512 := Rect.unit (s := S512) ![0] S512.size inb_S512_S512_0
abbrev rBo : Rect S500 := Rect.unit (s := S500) ![0] S500.size inb_S500_S500_0
abbrev rOut : Rect S1x152x30x500 := Rect.unit (s := S1x152x30x500) ![0, 0, 0, 0] S1x152x30x500.size inb_S1x152x30x500_S1x152x30x500_0_0_0_0

/-! ## What the body leaves in the output buffer -/

/-- The output buffer after the body, from the eight input buffers' contents (in the order of the kernel's
    operands: encoder block, decoder block, W_enc, b_enc, W_dec, b_dec, W_out, b_out): its one whole store. -/
def out8 (x0 : Vec F S1x152x512 .f32) (x1 : Vec F S1x30x512 .f32) (x2 : Vec F S512x512 .bf16) (x3 : Vec F S512 .f32)
    (x4 : Vec F S512x512 .bf16) (x5 : Vec F S512 .f32) (x6 : Vec F S500x512 .bf16) (x7 : Vec F S500 .f32) :
    Vec F S1x152x30x500 .f32 :=
  View.canon [⟨rOut, k0_pay1 (k0_pay2 (View.ld x0 rEnc) (View.ld x1 rDec) (View.ld x2 rW) (View.ld x4 rW) (View.ld x6 rWo)
    (View.ld x3 rB) (View.ld x5 rB) (View.ld x7 rBo))⟩]

/-- The one store covers the buffer. -/
theorem cover8 (p0 : Vec F S1x152x30x500 .f32) (y : S1x152x30x500.Idx) :
    ∃ pc ∈ ([⟨rOut, p0⟩] : List (View.Piece (Elt F) S1x152x30x500 .f32)), y ∈ pc.1.set :=
  View.cover_of_tiled [⟨rOut, p0⟩] S1x152x30x500.size (by rfl) y

/-! ## The body's triple -/

set_option maxHeartbeats 2000000 in
/-- The body on whole buffers, the inputs at contents `x0 … x7` and the output at anything, runs to the
    continuation holding the inputs as they were and the output at `out8` of them. -/
theorem sound_kernel (c : Dev nD) (E : Set ℕ) (i : grid0.Coords)
    (a0 : Memref sig .tc .vmem S1x152x512 .f32) (h0 : a0.IsWhole) (a1 : Memref sig .tc .vmem S1x30x512 .f32) (h1 : a1.IsWhole)
    (a2 : Memref sig .tc .vmem S512x512 .bf16) (h2 : a2.IsWhole) (a3 : Memref sig .tc .vmem S512 .f32) (h3 : a3.IsWhole)
    (a4 : Memref sig .tc .vmem S512x512 .bf16) (h4 : a4.IsWhole) (a5 : Memref sig .tc .vmem S512 .f32) (h5 : a5.IsWhole)
    (a6 : Memref sig .tc .vmem S500x512 .bf16) (h6 : a6.IsWhole) (a7 : Memref sig .tc .vmem S500 .f32) (h7 : a7.IsWhole)
    (a8 : Memref sig .tc .vmem S1x152x30x500 .f32) (h8 : a8.IsWhole)
    (x0 : Vec F S1x152x512 .f32) (x1 : Vec F S1x30x512 .f32) (x2 : Vec F S512x512 .bf16) (x3 : Vec F S512 .f32)
    (x4 : Vec F S512x512 .bf16) (x5 : Vec F S512 .f32) (x6 : Vec F S500x512 .bf16) (x7 : Vec F S500 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (out8 x0 x1 x2 x3 x4 x5 x6 x7)) -∗ K ⟨⟩))
      ⊢ wp frame (wpE (defs₀ (F := F)) Variants.none c none) E
          (cc0__joiner_kernel i a0 h0 a1 h1 a2 h2 a3 h3 a4 h4 a5 h5 a6 h6 a7 h7 a8 h8) K := by
  simp only [cc0__joiner_kernel_eq_skeleton]; unfold cc0__joiner_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-- Every access is the whole buffer at offset zero, so the canonical form of the one store is its payload and
    each load reads the buffer's contents: the output buffer ends at the body's arithmetic of the eight inputs. -/
theorem out8_eq (x0 : Vec F S1x152x512 .f32) (x1 : Vec F S1x30x512 .f32) (x2 : Vec F S512x512 .bf16) (x3 : Vec F S512 .f32)
    (x4 : Vec F S512x512 .bf16) (x5 : Vec F S512 .f32) (x6 : Vec F S500x512 .bf16) (x7 : Vec F S500 .f32) :
    out8 x0 x1 x2 x3 x4 x5 x6 x7 = k0_pay1 (k0_pay2 x0 x1 x2 x4 x6 x3 x5 x7) := by
  have hz4 : (![0, 0, 0, 0] : Fin 4 → Nat) = fun _ => 0 := funext fun a => by fin_cases a <;> rfl
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a; rfl
  unfold out8
  rw [View.canon_unit_zero hz4]
  simp only [View.ld_unit_zero (S := S1x152x512) hz3, View.ld_unit_zero (S := S1x30x512) hz3,
    View.ld_unit_zero (S := S512x512) hz2, View.ld_unit_zero (S := S500x512) hz2,
    View.ld_unit_zero (S := S512) hz1, View.ld_unit_zero (S := S500) hz1]

end Cert.KernelIdeal.Body

end
-- ==== Proof.GridI.lean ====
/-
  Where each window's block sits at each of the 32 grid points, and how much of it lies inside its array.

  The grid is 16 × 2: point `t` is batch entry `t / 2` and encoder tile `t % 2`. The encoder window's block
  [1,152,512] and the result window's block [1,152,30,500] sit at (t/2, t%2, 0 …): tile 0 holds frames 0‥151
  whole, tile 1 frames 152‥299, the last four of its 152 rows past the array's end (300 = 152 + 148). The decoder
  window's block [1,30,512] sits at (t/2, 0, 0); the weights' and biases' blocks are their whole arrays.
-/
import proofs.«135892_j6803228197541_2_alg».proof.Proof.Gen.KernelIdeal.Points

noncomputable section

namespace Cert.KernelIdeal.Body

open Cert.KernelIdeal Cert.KernelIdeal.Gen
open Idealize.ShloMosaic

/-- The encoder window's block index at point `t`. -/
theorem idx0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)

/-- How much of the encoder block lies inside the array: all of tile 0, the first 148 rows of tile 1. -/
theorem xs0 : ∀ t : Fin cfg0.N, win0_0.xsize (grid0.coords t) 0 = 1 ∧ win0_0.xsize (grid0.coords t) 1 = 152 - 4 * (t.val % 2)
    ∧ win0_0.xsize (grid0.coords t) 2 = 512 :=
  (by decide +kernel : ∀ t : Fin grid0.N, win0_0.xsize (grid0.coords t) 0 = 1 ∧ win0_0.xsize (grid0.coords t) 1 = 152 - 4 * (t.val % 2)
    ∧ win0_0.xsize (grid0.coords t) 2 = 512)

/-- The decoder window's block index at point `t`. -/
theorem idx1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)

/-- The weights' and biases' blocks are their whole arrays at every point. -/
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 :=
  (by decide +kernel : ∀ t : Fin grid0.N, win0_3.index t 0 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 :=
  (by decide +kernel : ∀ t : Fin grid0.N, win0_5.index t 0 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 :=
  (by decide +kernel : ∀ t : Fin grid0.N, win0_7.index t 0 = 0)

/-- The result window's block index at point `t`. -/
theorem idx8 : ∀ t : Fin cfg0.N, win0_8.index t 0 = t.val / 2 ∧ win0_8.index t 1 = t.val % 2 ∧ win0_8.index t 2 = 0
    ∧ win0_8.index t 3 = 0 :=
  (by decide +kernel : ∀ t : Fin grid0.N, win0_8.index t 0 = t.val / 2 ∧ win0_8.index t 1 = t.val % 2 ∧ win0_8.index t 2 = 0
    ∧ win0_8.index t 3 = 0)

/-- How much of the result block lies inside the array: as for the encoder block. -/
theorem xs8 : ∀ t : Fin cfg0.N, win0_8.xsize (grid0.coords t) 0 = 1 ∧ win0_8.xsize (grid0.coords t) 1 = 152 - 4 * (t.val % 2)
    ∧ win0_8.xsize (grid0.coords t) 2 = 30 ∧ win0_8.xsize (grid0.coords t) 3 = 500 :=
  (by decide +kernel : ∀ t : Fin grid0.N, win0_8.xsize (grid0.coords t) 0 = 1 ∧ win0_8.xsize (grid0.coords t) 1 = 152 - 4 * (t.val % 2)
    ∧ win0_8.xsize (grid0.coords t) 2 = 30 ∧ win0_8.xsize (grid0.coords t) 3 = 500)

end Cert.KernelIdeal.Body

end
-- ==== Proof.Spec.lean ====
/-
  The joiner's result as a function of its eight argument arrays, on the extended reals.

  For a batch entry b, an encoder frame t and a decoder position u, write
    E j = Σ_d enc[b,t,d] · W_enc[j,d] + b_enc[j]      (the encoder frame projected),
    D j = Σ_d dec[b,u,d] · W_dec[j,d] + b_dec[j]      (the decoder position projected).
  The reference joins first and projects to the vocabulary afterwards,
    ref[b,t,u,v] = Σ_j (E j + D j) · W_out[v,j] + b_out[v],
  while the kernel projects each half to the vocabulary and joins the logits,
    ker[b,t,u,v] = Σ_j E j · W_out[v,j] + Σ_j D j · W_out[v,j] + b_out[v].
  The two agree wherever every entry is a real number (distributivity over a finite sum); on the
  extended reals they may differ at infinite entries, so the law is stated under finiteness.
-/
import Idealize.ShloMosaic.PureOps.Ideal
import Idealize.ShloMosaic.Lib.ValueIdx

noncomputable section

open Idealize.ShloMosaic Idealize.ShloMosaic.ValueIdx
open scoped BigOperators

namespace Joiner

/-- One row `x` (512 features) through a linear layer with 512 outputs, at output `j`:
    `Σ_d x d · W[j,d] + b[j]`. -/
def proj (x : Fin 512 → EReal) (W : (⟨2, ![512, 512]⟩ : Shape).Idx → EReal)
    (b : (⟨1, ![512]⟩ : Shape).Idx → EReal) (j : Fin 512) : EReal :=
  (∑ d : Fin 512, x d * W (ix2 j d)) + b (ix1 j)

/-- One joined row `h` (512 features) against the vocabulary matrix at entry `v`: `Σ_j h j · W_out[v,j]`. -/
def vocab (h : Fin 512 → EReal) (Wo : (⟨2, ![500, 512]⟩ : Shape).Idx → EReal) (v : Fin 500) : EReal :=
  ∑ j : Fin 512, h j * Wo (ix2 v j)

/-- The kernel's logit for one encoder row `xe` and one decoder row `xd`: each half projected to the
    vocabulary on its own, the logits added, then the output bias. -/
def kerRow (xe xd : Fin 512 → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal) (v : Fin 500) : EReal :=
  vocab (proj xe We be) Wo v + vocab (proj xd Wd bd) Wo v + bo (ix1 v)

/-- The reference's logit for the same two rows: the projections added first, one vocabulary product, the bias. -/
def refRow (xe xd : Fin 512 → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal) (v : Fin 500) : EReal :=
  vocab (fun j => proj xe We be j + proj xd Wd bd j) Wo v + bo (ix1 v)

/-- Row `t` of batch entry `b` of a rank-3 array with 512 features. -/
def rowOf {n0 n1 : Nat} (x : (⟨3, ![n0, n1, 512]⟩ : Shape).Idx → EReal) (b : Fin n0) (t : Fin n1) : Fin 512 → EReal :=
  fun d => x (ix3 b t d)

/-- The kernel's whole result array: entry (b,t,u,v) is `kerRow` of encoder row (b,t) and decoder row (b,u). -/
def kerG (enc : (⟨3, ![16, 300, 512]⟩ : Shape).Idx → EReal) (dec : (⟨3, ![16, 30, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal) :
    (⟨4, ![16, 300, 30, 500]⟩ : Shape).Idx → EReal :=
  fun i => kerRow (rowOf enc (i 0) (i 1)) (rowOf dec (i 0) (i 2)) We be Wd bd Wo bo (i 3)

/-- The reference's whole result array, likewise through `refRow`. -/
def refG (enc : (⟨3, ![16, 300, 512]⟩ : Shape).Idx → EReal) (dec : (⟨3, ![16, 30, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal) :
    (⟨4, ![16, 300, 30, 500]⟩ : Shape).Idx → EReal :=
  fun i => refRow (rowOf enc (i 0) (i 1)) (rowOf dec (i 0) (i 2)) We be Wd bd Wo bo (i 3)

/-- An array all of whose entries are real numbers. -/
def Finite {ι : Type} (x : ι → EReal) : Prop := ∀ i, ∃ r : ℝ, x i = (r : EReal)

end Joiner

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.KerPay.lean ====
/-
  The kernel body's arithmetic read at one index, at the exact extended reals.

  The body takes an encoder block `enc` of 152 rows, a decoder block `dec` of 30 rows, three weight
  matrices and three bias vectors.  It projects every encoder row and every decoder row to 512 features,
    E t j = Σ_d enc[0,t,d] · W_enc[j,d] + b_enc[j],      D u j = Σ_d dec[0,u,d] · W_dec[j,d] + b_dec[j],
  takes each projected row against the vocabulary matrix on its own,
    P t v = Σ_j E t j · W_out[v,j],                      Q u v = Σ_j D u j · W_out[v,j],
  and lays the two tables and the output bias over the block of results:
    out[0,t,u,v] = P t v + Q u v + b_out[v].
  The narrowing of a row to the shorter float format changes nothing at the exact values, and each matrix
  product accumulates into zero.  So the entry at `(0, t, u, v)` is `kerRow` of encoder row `t` and decoder row
  `u` at `v`; in particular it depends on the encoder block through row `t` alone.

  First the layout forms of rank 3 that lay a table along a new middle or leading axis, each read at an index
  given by coordinates; then the four matrix products at an index; then the two projected rows; then the entry.
-/
import proofs.«135892_j6803228197541_2_alg».proof.Proof.Gen.KernelIdeal.Skeleton
import proofs.«135892_j6803228197541_2_alg».proof.Proof.Spec
import proofs.«135892_j6803228197541_2_alg».proof.Proof.LibDotIdx
import Idealize.ShloMosaic.PureOps.Ideal.Laws
import Idealize.ShloMosaic.Lib.ValueIdx
import Idealize.ShloMosaic.Lib.ValueLayout
import Idealize.ShloMosaic.Lib.Pipeline.Value

noncomputable section

namespace Joiner.KerPay

open Idealize.ShloMosaic Idealize.ShloMosaic.ValueIdx Cert.KernelIdeal
open scoped BigOperators

/-! ## Rank-3 layout forms read at an index -/

section Layout
variable {α : Type}

/-- A matrix `[a, b]` cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    omega)

/-- A table `[a, 1, c]` laid along a middle axis of length `b` reads, at `(p, q, r)`, the operand at `(p, 0, r)`. -/
theorem broadcastTo_a1c_abc_apply {a b c : ℕ} (y : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ y h (ix3 p q r) = y (ix3 p (0 : Fin 1) r) := by
  refine broadcastTo_apply y h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A table `[1, b, c]` laid along a leading axis of length `a` reads, at `(p, q, r)`, the operand at `(0, q, r)`. -/
theorem broadcastTo_1bc_abc_apply {a b c : ℕ} (y : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ y h (ix3 p q r) = y (ix3 (0 : Fin 1) q r) := by
  refine broadcastTo_apply y h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A row `[1, 1, c]` laid along two leading axes reads, at `(p, q, r)`, the operand at `(0, 0, r)`. -/
theorem broadcastTo_11c_abc_apply {a b c : ℕ} (y : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ y h (ix3 p q r) = y (ix3 (0 : Fin 1) (0 : Fin 1) r) := by
  refine broadcastTo_apply y h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

/-! ## The four matrix products at an index

Each contracts the second axis of both operands into a zero accumulator: at `(a, b)` it is the sum over the
contracted coordinate of the products of the two rows' entries. -/

/-- The encoder block against the encoder weights. -/
theorem encProj_apply (A : FVec Ideal S152x512 .bf16) (W : FVec Ideal S512x512 .bf16) (t : Fin 152) (j : Fin 512) :
    matmul dot_S152x512_S512x512_S152x512_1_1_0_0_n_n none A W (constant (F := Ideal) S152x512 .f32 0x00000000#32) (ix2 t j)
      = ∑ d : Fin 512, A (ix2 t d) * W (ix2 j d) :=
  DotIdx.matmul_rows_zero_apply _ none A W t j

/-- The decoder block against the decoder weights. -/
theorem decProj_apply (A : FVec Ideal S30x512 .bf16) (W : FVec Ideal S512x512 .bf16) (u : Fin 30) (j : Fin 512) :
    matmul dot_S30x512_S512x512_S30x512_1_1_0_0_n_n none A W (constant (F := Ideal) S30x512 .f32 0x00000000#32) (ix2 u j)
      = ∑ d : Fin 512, A (ix2 u d) * W (ix2 j d) :=
  DotIdx.matmul_rows_zero_apply _ none A W u j

/-- The projected encoder rows against the vocabulary matrix. -/
theorem encVocab_apply (H : FVec Ideal S152x512 .bf16) (W : FVec Ideal S500x512 .bf16) (t : Fin 152) (v : Fin 500) :
    matmul dot_S152x512_S500x512_S152x500_1_1_0_0_n_n none H W (constant (F := Ideal) S152x500 .f32 0x00000000#32) (ix2 t v)
      = ∑ j : Fin 512, H (ix2 t j) * W (ix2 v j) :=
  DotIdx.matmul_rows_zero_apply _ none H W t v

/-- The projected decoder rows against the vocabulary matrix. -/
theorem decVocab_apply (H : FVec Ideal S30x512 .bf16) (W : FVec Ideal S500x512 .bf16) (u : Fin 30) (v : Fin 500) :
    matmul dot_S30x512_S500x512_S30x500_1_1_0_0_n_n none H W (constant (F := Ideal) S30x500 .f32 0x00000000#32) (ix2 u v)
      = ∑ j : Fin 512, H (ix2 u j) * W (ix2 v j) :=
  DotIdx.matmul_rows_zero_apply _ none H W u v

/-! ## The two projected rows -/

/-- Row `t` of the encoder block through its linear layer, at feature `j`: the block's leading unit axis dropped,
    the product with the weights, the bias laid along every row. -/
theorem encRow_apply (X0 : FVec Ideal S1x152x512 .f32) (X2 : FVec Ideal S512x512 .bf16) (X3 : FVec Ideal S512 .f32)
    (h1 : S1x152x512.ShapeCasts S152x512) (hb : FTy.bits .bf16 < FTy.bits .f32) (h2 : S512x512.ShapeCasts S512x512)
    (h3 : S512.ShapeCasts S1x512) (h4 : S1x512.Broadcasts S152x512) (t : Fin 152) (j : Fin 512) :
    addf (matmul dot_S152x512_S512x512_S152x512_1_1_0_0_n_n none (truncf .bf16 (shapeCast S152x512 X0 h1) hb)
          (shapeCast S512x512 X2 h2) (constant (F := Ideal) S152x512 .f32 0x00000000#32))
        (broadcastTo S152x512 (shapeCast S1x512 X3 h3) h4) (ix2 t j)
      = proj (fun d => X0 (ix3 (0 : Fin 1) t d)) X2 X3 j := by
  rw [addf_apply, encProj_apply, broadcastTo_1b_ab_apply, shapeCast_a_1a_apply]
  unfold proj
  congr 1
  refine Finset.sum_congr rfl fun d _ => ?_
  rw [truncf_apply, shapeCast_1ab_ab_apply, shapeCast_self]

/-- Row `u` of the decoder block through its linear layer, at feature `j`. -/
theorem decRow_apply (X1 : FVec Ideal S1x30x512 .f32) (X4 : FVec Ideal S512x512 .bf16) (X5 : FVec Ideal S512 .f32)
    (h1 : S1x30x512.ShapeCasts S30x512) (hb : FTy.bits .bf16 < FTy.bits .f32) (h2 : S512x512.ShapeCasts S512x512)
    (h3 : S512.ShapeCasts S1x512) (h4 : S1x512.Broadcasts S30x512) (u : Fin 30) (j : Fin 512) :
    addf (matmul dot_S30x512_S512x512_S30x512_1_1_0_0_n_n none (truncf .bf16 (shapeCast S30x512 X1 h1) hb)
          (shapeCast S512x512 X4 h2) (constant (F := Ideal) S30x512 .f32 0x00000000#32))
        (broadcastTo S30x512 (shapeCast S1x512 X5 h3) h4) (ix2 u j)
      = proj (fun d => X1 (ix3 (0 : Fin 1) u d)) X4 X5 j := by
  rw [addf_apply, decProj_apply, broadcastTo_1b_ab_apply, shapeCast_a_1a_apply]
  unfold proj
  congr 1
  refine Finset.sum_congr rfl fun d _ => ?_
  rw [truncf_apply, shapeCast_1ab_ab_apply, shapeCast_self]

/-! ## The entry at `(0, t, u, v)` -/

/-- The body's result block at `(0, t, u, v)` is `kerRow` of encoder row `t` and decoder row `u` at `v`. -/
theorem pay_apply (X0 : Vec Ideal S1x152x512 .f32) (X1 : Vec Ideal S1x30x512 .f32) (X2 : Vec Ideal S512x512 .bf16)
    (X3 : Vec Ideal S512 .f32) (X4 : Vec Ideal S512x512 .bf16) (X5 : Vec Ideal S512 .f32)
    (X6 : Vec Ideal S500x512 .bf16) (X7 : Vec Ideal S500 .f32) (t : Fin 152) (u : Fin 30) (v : Fin 500) :
    Cert.KernelIdeal.Gen.k0_pay1 (F := Ideal) (Cert.KernelIdeal.Gen.k0_pay2 (F := Ideal) X0 X1 X2 X4 X6 X3 X5 X7)
        (ValueIdx.ix4 (0 : Fin 1) t u v)
      = Joiner.kerRow (fun d => X0 (ValueIdx.ix3 (0 : Fin 1) t d)) (fun d => X1 (ValueIdx.ix3 (0 : Fin 1) u d))
          X2 X3 X4 X5 X6 X7 v := by
  unfold Cert.KernelIdeal.Gen.k0_pay1 Cert.KernelIdeal.Gen.k0_pay2
  dsimp only
  rw [shapeCast_abc_1abc_apply, addf_apply, addf_apply, broadcastTo_a1c_abc_apply, broadcastTo_1bc_abc_apply,
    broadcastTo_11c_abc_apply, shapeCast_ab_a1b_apply, shapeCast_ab_1ab_apply, shapeCast_a_11a_apply,
    encVocab_apply, decVocab_apply]
  unfold kerRow vocab
  congr 1
  congr 1
  · refine Finset.sum_congr rfl fun j _ => ?_
    rw [truncf_apply, encRow_apply, shapeCast_self]
  · refine Finset.sum_congr rfl fun j _ => ?_
    rw [truncf_apply, decRow_apply, shapeCast_self]

/-- The entry at `(0, t, u, v)` reads the encoder block through row `t` alone: two blocks that agree on that
    row give the same entries along it. -/
theorem pay_congr (X0 X0' : Vec Ideal S1x152x512 .f32) (X1 : Vec Ideal S1x30x512 .f32) (X2 : Vec Ideal S512x512 .bf16)
    (X3 : Vec Ideal S512 .f32) (X4 : Vec Ideal S512x512 .bf16) (X5 : Vec Ideal S512 .f32)
    (X6 : Vec Ideal S500x512 .bf16) (X7 : Vec Ideal S500 .f32) (t : Fin 152)
    (h : ∀ d : Fin 512, X0 (ValueIdx.ix3 (0 : Fin 1) t d) = X0' (ValueIdx.ix3 (0 : Fin 1) t d))
    (u : Fin 30) (v : Fin 500) :
    Cert.KernelIdeal.Gen.k0_pay1 (F := Ideal) (Cert.KernelIdeal.Gen.k0_pay2 (F := Ideal) X0 X1 X2 X4 X6 X3 X5 X7)
        (ValueIdx.ix4 (0 : Fin 1) t u v)
      = Cert.KernelIdeal.Gen.k0_pay1 (F := Ideal) (Cert.KernelIdeal.Gen.k0_pay2 (F := Ideal) X0' X1 X2 X4 X6 X3 X5 X7)
        (ValueIdx.ix4 (0 : Fin 1) t u v) := by
  rw [pay_apply, pay_apply]
  exact congrArg (fun xe => Joiner.kerRow xe (fun d => X1 (ValueIdx.ix3 (0 : Fin 1) u d)) X2 X3 X4 X5 X6 X7 v)
    (funext h)

end Joiner.KerPay

end
-- ==== Proof.DataI.lean ====
/-
  The idealized kernel's run with its result named: proof data, body obligation, frame.

  At each grid point the body leaves the result buffer at ONE function `out8` of the eight input buffers. Seven of
  them hold their array's block exactly. The encoder buffer holds the array's block only on the rows its fetch
  fills: at tile 1 the last four of its 152 rows lie past the array's end and hold words nothing names. The
  result's rows are computed row by row — result row r reads encoder row r only — so on the rows the write-back
  moves (the same rows: both blocks are cut alike) the result does not depend on those words. That is what the
  body obligation of a clipped window asks: the buffer's contents on the moved rows.
-/
import proofs.«135892_j6803228197541_2_alg».proof.Proof.BodyI
import proofs.«135892_j6803228197541_2_alg».proof.Proof.GridI
import proofs.«135892_j6803228197541_2_alg».proof.Proof.KerPay
import Idealize.ShloMosaic.Lib.Pipeline.Frame
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The encoder window's buffer after the body: the array's block on the rows inside the array; past the array's
    end (tile 1's last four rows) the zero word, which nothing reads. -/
def encBuf (c : Dev nD) (t : Fin cfg0.N) : S1x152x512.Idx → Elt Ideal .f32 :=
  win0_0.fill (grid0.coords t) (fun _ => Scalar.ofBits (F := Ideal) .f32 0#32) (iblk m c 0 t)

/-- The result window's buffer after the body: `out8` of the eight input buffers. -/
def outBuf (c : Dev nD) (t : Fin cfg0.N) : S1x152x30x500.Idx → Elt Ideal .f32 :=
  out8 (encBuf m c t) (iblk m c 1 t) (iblk m c 2 t) (iblk m c 3 t) (iblk m c 4 t) (iblk m c 5 t) (iblk m c 6 t) (iblk m c 7 t)

/-- The proof data on core `c`: the arrays as the region finds them; after the body each input buffer at its block
    (the encoder's filled out past the array's end) and the result's at `outBuf`; the class invariant; nothing owed. -/
def dats (_ : Fin 1) (c : Dev nD) : Dat τ (Elt Ideal) Unit ℕ (UR sig nD τ) ℕ cfg0 c where
  A w := V m c (Pipeline.arrRef spec0 w)
  after w t := match w with
    | ⟨0, _⟩ => encBuf m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = encBuf m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBuf m c t := by dsimp only [dats]

/-- The encoder window is fetched at every point: the body finds the array's block on the rows the fetch fills and,
    past the array's end, whatever the buffer held (`d`). -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The result window is written back at every point, so its buffer is fresh at every point: it holds anything. -/
theorem before0_8 (c : Dev nD) (t : Fin cfg0.N) (d) : (dats m 0 c).before 8 t d = d :=
  (dats m 0 c).before_out_reset 8 rfl t (by
    by_cases h : t.val = 0
    · exact .inl h
    · exact .inr ⟨h, flush0_8 _⟩) d

/-! ## The rows the transfers move do not see the words past the array's end -/

/-- Row `r` of the encoder block lies inside the array when `r < 152 − 4·(t % 2)`: every index of that row is one the
    fetch fills. -/
theorem moved_row (t : Fin cfg0.N) (r : Fin 152) (hr : r.val < 152 - 4 * (t.val % 2)) (k : Fin 512) :
    ∀ a, ((ix3 (0 : Fin 1) r k : S1x152x512.Idx) a).val < win0_0.xsize (grid0.coords t) a := by
  obtain ⟨h0, h1, h2⟩ := xs0 t
  intro a
  match a with
  | ⟨0, _⟩ => show (0 : Nat) < win0_0.xsize (grid0.coords t) 0; rw [h0]; exact Nat.one_pos
  | ⟨1, _⟩ => show r.val < win0_0.xsize (grid0.coords t) 1; rw [h1]; exact hr
  | ⟨2, _⟩ => show k.val < win0_0.xsize (grid0.coords t) 2; rw [h2]; exact k.isLt

/-- On such a row a filled buffer holds the fetched block whatever it held before. -/
theorem fill_row (t : Fin cfg0.N) (d0 d1 : S1x152x512.Idx → Elt Ideal .f32)
    (g : (win0_0.xblock (grid0.coords t)).Idx → Elt Ideal .f32) (r : Fin 152) (hr : r.val < 152 - 4 * (t.val % 2)) (k : Fin 512) :
    win0_0.fill (grid0.coords t) d0 g (ix3 (0 : Fin 1) r k) = win0_0.fill (grid0.coords t) d1 g (ix3 (0 : Fin 1) r k) := by
  have hm : win0_0.moved (grid0.coords t) (ix3 (0 : Fin 1) r k) = true := (win0_0.moved_iff _ _).mpr (moved_row t r hr k)
  unfold Window.fill; rw [dif_pos hm, dif_pos hm]

/-- An index of the result block's part inside the array, by coordinates: its encoder row is one the fetch fills. -/
theorem xinj8 (t : Fin cfg0.N) (j : (win0_8.xblock (grid0.coords t)).Idx) :
    ∃ (r : Fin 152) (u : Fin 30) (v : Fin 500), r.val < 152 - 4 * (t.val % 2) ∧ r.val = (j 1).val ∧ u.val = (j 2).val
      ∧ v.val = (j 3).val ∧ win0_8.xinj (grid0.coords t) j = ix4 (0 : Fin 1) r u v := by
  obtain ⟨h0, h1, h2, h3⟩ := xs8 t
  have hj0 : (j 0).val < 1 := lt_of_lt_of_eq (j 0).isLt h0
  have hj1 : (j 1).val < 152 - 4 * (t.val % 2) := lt_of_lt_of_eq (j 1).isLt h1
  have hj2 : (j 2).val < 30 := lt_of_lt_of_eq (j 2).isLt h2
  have hj3 : (j 3).val < 500 := lt_of_lt_of_eq (j 3).isLt h3
  refine ⟨⟨(j 1).val, by omega⟩, ⟨(j 2).val, hj2⟩, ⟨(j 3).val, hj3⟩, hj1, rfl, rfl, rfl, ?_⟩
  funext a; apply Fin.ext
  match a with
  | ⟨0, _⟩ => show (j 0).val = 0; omega
  | ⟨1, _⟩ => rfl
  | ⟨2, _⟩ => rfl
  | ⟨3, _⟩ => rfl

/-- The result's rows inside the array are the same whatever the encoder buffer holds past the array's end. -/
theorem loc8 (c : Dev nD) (t : Fin cfg0.N) (d0 : S1x152x512.Idx → Elt Ideal .f32) :
    win0_8.cut (grid0.coords t) (out8 (win0_0.fill (grid0.coords t) d0 (iblk m c 0 t)) (iblk m c 1 t) (iblk m c 2 t)
        (iblk m c 3 t) (iblk m c 4 t) (iblk m c 5 t) (iblk m c 6 t) (iblk m c 7 t))
      = win0_8.cut (grid0.coords t) (outBuf m c t) := by
  funext j
  obtain ⟨r, u, v, hr, -, -, -, hx⟩ := xinj8 t j
  show out8 _ _ _ _ _ _ _ _ (win0_8.xinj (grid0.coords t) j) = outBuf m c t (win0_8.xinj (grid0.coords t) j)
  unfold outBuf
  rw [hx, out8_eq, out8_eq]
  exact Joiner.KerPay.pay_congr _ _ _ _ _ _ _ _ _ r (fun k => fill_row t d0 _ (iblk m c 0 t) r hr k) u v

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns: the two clipped windows' buffers stated on the rows their transfers move, the others' exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare
        (win0_8.fill (grid0.coords t) d (win0_8.cut (grid0.coords t) ((dats m 0 c).after 8 t)))))

/-- The body at any point. The result buffer ends at `out8` of what the input buffers held; on the rows the write-back
    moves that is `outBuf` (`loc8`), which is all the obligation of a clipped window states. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8,
    show win0_0.cut (grid0.coords t) (encBuf m c t) = iblk m c 0 t from win0_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (out8 (win0_0.fill (grid0.coords t) d0 (iblk m c 0 t)) (iblk m c 1 t) (iblk m c 2 t) (iblk m c 3 t)
    (iblk m c 4 t) (iblk m c 5 t) (iblk m c 6 t) (iblk m c 7 t))
  rw [win0_8.fill_congr_cut (grid0.coords t) (loc8 m c t d0)]
  iexact H8

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; every array of the pipeline ends at what the library computes from
    the proof data and every other unscoped buffer at its region-entry contents. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME of the idealized kernel: the eight arguments end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.ValueI.lean ====
/-
  The idealized kernel's result array, whole: entry (b,t,u,v) is `Joiner.kerRow` of encoder row (b,t) and decoder
  row (b,u) of the argument arrays.

  Point `p` of the grid (batch entry p/2, encoder tile p%2) writes back the rows of its result block that lie inside
  the array: frames 0‥151 at tile 0, frames 152‥299 at tile 1. Those 32 cut blocks cover the result array, and what
  point `p` writes at block row r is `kerRow` of encoder frame (p%2)·152 + r of batch entry p/2 — the encoder buffer's row
  r is that frame, the decoder buffer holds batch entry p/2's positions, and the weight and bias buffers hold their
  whole arrays. The weights reach the kernel through a change of float format, which is the identity here.
-/
import proofs.«135892_j6803228197541_2_alg».proof.Proof.DataI
import proofs.«135892_j6803228197541_2_alg».proof.Proof.Spec
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The input buffers, read at an index -/

/-- Row `r` of the encoder buffer, inside the array, is frame (p%2)·152 + r of batch entry p/2. -/
theorem enc_at (c : Dev nD) (t : Fin cfg0.N) (r : Fin 152) (hr : r.val < 152 - 4 * (t.val % 2)) (k : Fin 512)
    (i : S16x300x512.Idx) (h0 : (i 0).val = t.val / 2) (h1 : (i 1).val = (t.val % 2) * 152 + r.val) (h2 : (i 2).val = k.val) :
    encBuf m c t (ix3 (0 : Fin 1) r k) = V m c main_arg0 i := by
  have hm : win0_0.moved (grid0.coords t) (ix3 (0 : Fin 1) r k) = true := (win0_0.moved_iff _ _).mpr (moved_row t r hr k)
  obtain ⟨e0, e1, e2⟩ := idx0 t
  unfold encBuf Window.fill; rw [dif_pos hm]; unfold iblk; rw [View.read_apply]
  show V m c main_arg0 (((cfg0.win 0).blk t).view.emb _) = V m c main_arg0 i
  refine congrArg (V m c main_arg0) ?_; funext a; apply Fin.ext
  match a with
  | ⟨0, _⟩ => show win0_0.index t 0 * 1 + 1 * 0 = (i 0).val; rw [e0, h0]; omega
  | ⟨1, _⟩ => show win0_0.index t 1 * 152 + 1 * r.val = (i 1).val; rw [e1, h1]; omega
  | ⟨2, _⟩ => show win0_0.index t 2 * 512 + 1 * k.val = (i 2).val; rw [e2, h2]; omega

/-- Row `u` of the decoder buffer is position `u` of batch entry p/2. -/
theorem dec_at (c : Dev nD) (t : Fin cfg0.N) (u : Fin 30) (k : Fin 512)
    (i : S16x30x512.Idx) (h0 : (i 0).val = t.val / 2) (h1 : (i 1).val = u.val) (h2 : (i 2).val = k.val) :
    iblk m c 1 t (ix3 (0 : Fin 1) u k) = V m c main_arg1 i := by
  obtain ⟨e0, e1, e2⟩ := idx1 t
  unfold iblk; rw [View.read_apply]
  show V m c main_arg1 (((cfg0.win 1).blk t).view.emb _) = V m c main_arg1 i
  refine congrArg (V m c main_arg1) ?_; funext a; apply Fin.ext
  match a with
  | ⟨0, _⟩ => show win0_1.index t 0 * 1 + 1 * 0 = (i 0).val; rw [e0, h0]; omega
  | ⟨1, _⟩ => show win0_1.index t 1 * 30 + 1 * u.val = (i 1).val; rw [e1, h1]; omega
  | ⟨2, _⟩ => show win0_1.index t 2 * 512 + 1 * k.val = (i 2).val; rw [e2, h2]; omega

/-- The weight and bias buffers hold their whole arrays. -/
theorem w2_at (c : Dev nD) (t : Fin cfg0.N) : (iblk m c 2 t : S512x512.Idx → Elt Ideal .bf16) = V m c main_v0 := by
  obtain ⟨e0, e1⟩ := idx2 t
  funext i; unfold iblk; rw [View.read_apply]
  show V m c main_v0 (((cfg0.win 2).blk t).view.emb i) = V m c main_v0 i
  refine congrArg (V m c main_v0) ?_; funext a; apply Fin.ext
  match a with
  | ⟨0, _⟩ => show win0_2.index t 0 * 512 + 1 * (i 0).val = (i 0).val; rw [e0]; omega
  | ⟨1, _⟩ => show win0_2.index t 1 * 512 + 1 * (i 1).val = (i 1).val; rw [e1]; omega
theorem w3_at (c : Dev nD) (t : Fin cfg0.N) : (iblk m c 3 t : S512.Idx → Elt Ideal .f32) = V m c main_arg3 := by
  have e0 := idx3 t
  funext i; unfold iblk; rw [View.read_apply]
  show V m c main_arg3 (((cfg0.win 3).blk t).view.emb i) = V m c main_arg3 i
  refine congrArg (V m c main_arg3) ?_; funext a; apply Fin.ext
  match a with
  | ⟨0, _⟩ => show win0_3.index t 0 * 512 + 1 * (i 0).val = (i 0).val; rw [e0]; omega
theorem w4_at (c : Dev nD) (t : Fin cfg0.N) : (iblk m c 4 t : S512x512.Idx → Elt Ideal .bf16) = V m c main_v1 := by
  obtain ⟨e0, e1⟩ := idx4 t
  funext i; unfold iblk; rw [View.read_apply]
  show V m c main_v1 (((cfg0.win 4).blk t).view.emb i) = V m c main_v1 i
  refine congrArg (V m c main_v1) ?_; funext a; apply Fin.ext
  match a with
  | ⟨0, _⟩ => show win0_4.index t 0 * 512 + 1 * (i 0).val = (i 0).val; rw [e0]; omega
  | ⟨1, _⟩ => show win0_4.index t 1 * 512 + 1 * (i 1).val = (i 1).val; rw [e1]; omega
theorem w5_at (c : Dev nD) (t : Fin cfg0.N) : (iblk m c 5 t : S512.Idx → Elt Ideal .f32) = V m c main_arg5 := by
  have e0 := idx5 t
  funext i; unfold iblk; rw [View.read_apply]
  show V m c main_arg5 (((cfg0.win 5).blk t).view.emb i) = V m c main_arg5 i
  refine congrArg (V m c main_arg5) ?_; funext a; apply Fin.ext
  match a with
  | ⟨0, _⟩ => show win0_5.index t 0 * 512 + 1 * (i 0).val = (i 0).val; rw [e0]; omega
theorem w6_at (c : Dev nD) (t : Fin cfg0.N) : (iblk m c 6 t : S500x512.Idx → Elt Ideal .bf16) = V m c main_v2 := by
  obtain ⟨e0, e1⟩ := idx6 t
  funext i; unfold iblk; rw [View.read_apply]
  show V m c main_v2 (((cfg0.win 6).blk t).view.emb i) = V m c main_v2 i
  refine congrArg (V m c main_v2) ?_; funext a; apply Fin.ext
  match a with
  | ⟨0, _⟩ => show win0_6.index t 0 * 500 + 1 * (i 0).val = (i 0).val; rw [e0]; omega
  | ⟨1, _⟩ => show win0_6.index t 1 * 512 + 1 * (i 1).val = (i 1).val; rw [e1]; omega
theorem w7_at (c : Dev nD) (t : Fin cfg0.N) : (iblk m c 7 t : S500.Idx → Elt Ideal .f32) = V m c main_arg7 := by
  have e0 := idx7 t
  funext i; unfold iblk; rw [View.read_apply]
  show V m c main_arg7 (((cfg0.win 7).blk t).view.emb i) = V m c main_arg7 i
  refine congrArg (V m c main_arg7) ?_; funext a; apply Fin.ext
  match a with
  | ⟨0, _⟩ => show win0_7.index t 0 * 500 + 1 * (i 0).val = (i 0).val; rw [e0]; omega

/-! ## The result array -/

/-- The result array as one function of the arrays the region finds. -/
def G (c : Dev nD) : S16x300x30x500.Idx → EReal :=
  Joiner.kerG (V m c main_arg0) (V m c main_arg1) (V m c main_v0) (V m c main_arg3) (V m c main_v1) (V m c main_arg5)
    (V m c main_v2) (V m c main_arg7)

/-- `G` at an index. -/
theorem G_apply (c : Dev nD) (i : S16x300x30x500.Idx) :
    G m c i = Joiner.kerRow (Joiner.rowOf (V m c main_arg0) (i 0) (i 1)) (Joiner.rowOf (V m c main_arg1) (i 0) (i 2))
      (V m c main_v0) (V m c main_arg3) (V m c main_v1) (V m c main_arg5) (V m c main_v2) (V m c main_arg7) (i 3) := rfl

/-- What point `t` writes back is block `t` of `G`. -/
theorem flushed_eq (c : Dev nD) (t : Fin cfg0.N) :
    (dats m 0 c).flushed 8 t = ((cfg0.win 8).blk t).view.read (Elt Ideal) (G m c) := by
  funext j
  obtain ⟨r, u, v, hr, hr1, hu, hv, hx⟩ := xinj8 t j
  obtain ⟨e0, e1, e2, e3⟩ := idx8 t
  show (dats m 0 c).after 8 t (win0_8.xinj (grid0.coords t) j) = _
  rw [after0_8, hx]; unfold outBuf; rw [out8_eq, Joiner.KerPay.pay_apply, View.read_apply]
  show _ = G m c (((cfg0.win 8).blk t).view.emb j)
  have i0 : ((((cfg0.win 8).blk t).view.emb j) 0).val = t.val / 2 := by
    show win0_8.index t 0 * 1 + 1 * (j 0).val = _
    have : (j 0).val < 1 := lt_of_lt_of_eq (j 0).isLt (xs8 t).1
    rw [e0]; omega
  have i1 : ((((cfg0.win 8).blk t).view.emb j) 1).val = (t.val % 2) * 152 + r.val := by
    show win0_8.index t 1 * 152 + 1 * (j 1).val = _; rw [e1, hr1]; omega
  have i2 : ((((cfg0.win 8).blk t).view.emb j) 2).val = u.val := by
    show win0_8.index t 2 * 30 + 1 * (j 2).val = _; rw [e2, hu]; omega
  have i3 : ((((cfg0.win 8).blk t).view.emb j) 3) = v := by
    apply Fin.ext; show win0_8.index t 3 * 500 + 1 * (j 3).val = _; rw [e3, hv]; omega
  rw [G_apply, i3, w2_at, w3_at, w4_at, w5_at, w6_at, w7_at]
  have hE : (fun d => encBuf m c t (ix3 (0 : Fin 1) r d))
      = Joiner.rowOf (V m c main_arg0) ((((cfg0.win 8).blk t).view.emb j) 0) ((((cfg0.win 8).blk t).view.emb j) 1) :=
    funext fun k => enc_at m c t r hr k _ i0 i1 rfl
  have hD : (fun d => iblk m c 1 t (ix3 (0 : Fin 1) u d))
      = Joiner.rowOf (V m c main_arg1) ((((cfg0.win 8).blk t).view.emb j) 0) ((((cfg0.win 8).blk t).view.emb j) 2) :=
    funext fun k => dec_at m c t u k _ i0 i2 rfl
  rw [← hE, ← hD]

/-- Every index of the result array lies in the cut block of the point of its batch entry and its frame's tile. -/
theorem covered (i : S16x300x30x500.Idx) :
    ∃ t : Fin cfg0.N, (cfg0.win 8).flush t = true ∧ i ∈ ((cfg0.win 8).blk t).view.set := by
  have h0 : (i 0).val < 16 := (i 0).isLt
  have h1 : (i 1).val < 300 := (i 1).isLt
  have h2 : (i 2).val < 30 := (i 2).isLt
  have h3 : (i 3).val < 500 := (i 3).isLt
  have hN : 2 * (i 0).val + (i 1).val / 152 < cfg0.N := lt_of_lt_of_eq (by omega : _ < 32) N_0.symm
  refine ⟨⟨2 * (i 0).val + (i 1).val / 152, hN⟩, flush0_8 _, ?_⟩
  obtain ⟨e0, e1, e2, e3⟩ := idx8 ⟨2 * (i 0).val + (i 1).val / 152, hN⟩
  obtain ⟨s0, s1, s2, s3⟩ := xs8 ⟨2 * (i 0).val + (i 1).val / 152, hN⟩
  show i ∈ ((View.whole main_v3).slice (win0_8.rect ⟨2 * (i 0).val + (i 1).val / 152, hN⟩)).set
  rw [View.set_slice_whole, Rect.mem_set_unit]
  intro a
  match a with
  | ⟨0, _⟩ =>
    show win0_8.index _ 0 * 1 ≤ (i 0).val ∧ (i 0).val < win0_8.index _ 0 * 1 + win0_8.xsize _ 0
    rw [e0, s0]; show (2 * (i 0).val + (i 1).val / 152) / 2 * 1 ≤ _ ∧ _ < (2 * (i 0).val + (i 1).val / 152) / 2 * 1 + 1; omega
  | ⟨1, _⟩ =>
    show win0_8.index _ 1 * 152 ≤ (i 1).val ∧ (i 1).val < win0_8.index _ 1 * 152 + win0_8.xsize _ 1
    rw [e1, s1]
    show (2 * (i 0).val + (i 1).val / 152) % 2 * 152 ≤ _ ∧ _ < (2 * (i 0).val + (i 1).val / 152) % 2 * 152 + (152 - 4 * ((2 * (i 0).val + (i 1).val / 152) % 2)); omega
  | ⟨2, _⟩ =>
    show win0_8.index _ 2 * 30 ≤ (i 2).val ∧ (i 2).val < win0_8.index _ 2 * 30 + win0_8.xsize _ 2
    rw [e2, s2]; omega
  | ⟨3, _⟩ =>
    show win0_8.index _ 3 * 500 ≤ (i 3).val ∧ (i 3).val < win0_8.index _ 3 * 500 + win0_8.xsize _ 3
    rw [e3, s3]; omega

/-- The result array after the run. -/
theorem final8 (c : Dev nD) : (dats m 0 c).arrAt 8 cfg0.N = G m c :=
  (dats m 0 c).arrAt_eq_of_cover 8 (G m c) (fun t _ => flushed_eq m c t) covered

end Cert.KernelIdeal.Body

end
-- ==== Proof.RunI.lean ====
/-
  The idealized kernel's run, stated over its ARGUMENTS: every weakly fair execution ends with the result array at
  `Joiner.kerG` of the eight argument arrays, and the arguments unchanged.

  The three weight matrices reach the kernel through a change of float format done before the region; on the extended
  reals that is the identity, so the arrays the region finds are the arguments themselves.
-/
import proofs.«135892_j6803228197541_2_alg».proof.Proof.ValueI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The encoder weights as the region finds them: the argument, its float format changed — the identity here. -/
theorem V_v0 (c : Dev nD) : (V m c main_v0 : S512x512.Idx → EReal) = m ((c : Thread nD τ).loc main_arg2) := by
  dsimp only [Gen.V, Gen.hostOps0]; after_results; rfl
/-- The decoder weights likewise. -/
theorem V_v1 (c : Dev nD) : (V m c main_v1 : S512x512.Idx → EReal) = m ((c : Thread nD τ).loc main_arg4) := by
  dsimp only [Gen.V, Gen.hostOps0]; after_results; rfl
/-- The vocabulary weights likewise. -/
theorem V_v2 (c : Dev nD) : (V m c main_v2 : S500x512.Idx → EReal) = m ((c : Thread nD τ).loc main_arg6) := by
  dsimp only [Gen.V, Gen.hostOps0]; after_results; rfl

/-- The result array as a function of the arguments. -/
theorem G_eq (c : Dev nD) : G m c = Joiner.kerG (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  unfold G
  rw [V_v0, V_v1, V_v2, V_main_arg0, V_main_arg1, V_main_arg3, V_main_arg5, V_main_arg7]

/-- THE RUN with the result named: the result array ends at `kerG` of the arguments, the arguments as they began. -/
theorem run_named : θ_run defs (onTc (τ := τ) (main (F := Ideal))) ⟨m, fun _ => 0, ρ⟩ (fun r => ∀ c : Dev nD,
      r.2.mem ((c.tc : Thread nD τ).loc main_v3) = Joiner.kerG (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 8).trans ((final8 m c).trans (G_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c)))⟩) (run_main m ρ)

end Cert.KernelIdeal.Body

end
-- ==== Proof.RefSide.lean ====
/-
  The reference program's result, as a function of its eight argument arrays, is `Joiner.refG`.

  Read one stage at a time at an index (b,t,u,v):
    stage 3  at (b,t,j)   is  Σ_d enc[b,t,d] · W_enc[j,d] + b_enc[j]   = proj (row (b,t) of enc) W_enc b_enc j,
    stage 7  at (b,u,j)   is  Σ_d dec[b,u,d] · W_dec[j,d] + b_dec[j]   = proj (row (b,u) of dec) W_dec b_dec j,
    stage 12 at (b,t,u,j) is  stage 3 at (b,t,j) + stage 7 at (b,u,j)   (the two broadcasts drop the axis they add),
    stage 16 at (b,t,u,v) is  Σ_j stage 12 at (b,t,u,j) · W_out[v,j] + b_out[v],
  which is `refRow` of the two rows at v. The broadcasts and the contractions read their operands at indices that
  are literal functions of the result index; each composed index function is identified with the index built from
  the coordinates, axis by axis.
  Then the run of the reference (the generated run: every execution terminates with the result buffer at the operations'
  composed term and the arguments unchanged) is restated with `Joiner.refG` of the argument arrays as the result, and the frame claim
  of the reference is the run with the result forgotten.
-/
import proofs.«135892_j6803228197541_2_alg».proof.Proof.Gen.ReferenceIdeal.Read
import proofs.«135892_j6803228197541_2_alg».proof.Proof.Gen.Pre_finite_inputs
import proofs.«135892_j6803228197541_2_alg».proof.Proof.Spec
import proofs.«135892_j6803228197541_2_alg».proof.Defs

noncomputable section

open Idealize.ShloMosaic Idealize.ShloMosaic.TcCoe Idealize.SL.Sem Idealize.ShloMosaic.ValueIdx
open scoped BigOperators

namespace Joiner.RefSide

open Cert.ReferenceIdeal Cert.ReferenceIdeal.Gen

/-- Stage 3 (the encoder projection with its bias) at (b,t,j). -/
theorem v3_at (a0 : FVec Ideal S16x300x512 .f32) (a2 : FVec Ideal S512x512 .f32) (a3 : FVec Ideal S512 .f32)
    (b : Fin 16) (t : Fin 300) (j : Fin 512) :
    Read.val_main_v3 (F := Ideal) a0 a2 a3 (ix3 b t j) = Joiner.proj (Joiner.rowOf a0 b t) a2 a3 j := by
  have e1 : ∀ d : Fin 512, Read.lidx_main_v0 (ix3 b t j) d = ix3 b t d := fun d => funext fun a => Fin.ext (by
    match a with
    | ⟨0, _⟩ => rfl
    | ⟨1, _⟩ => rfl
    | ⟨2, _⟩ => rfl)
  have e2 : ∀ d : Fin 512, Read.ridx_main_v0 (ix3 b t j) d = ix2 j d := fun d => funext fun a => Fin.ext (by
    match a with
    | ⟨0, _⟩ => rfl
    | ⟨1, _⟩ => rfl)
  have e3 : Read.idx_main_v1 (Read.idx_main_v2 (ix3 b t j)) = ix1 j := funext fun a => Fin.ext (by
    match a with
    | ⟨0, _⟩ => rfl)
  rw [Read.val_main_v3_apply, Read.val_main_v0_apply, Read.val_main_v2_apply, Read.val_main_v1_apply, e3]
  simp only [e1, e2, Ideal.addf_def]
  rfl

/-- Stage 7 (the decoder projection with its bias) at (b,u,j). -/
theorem v7_at (a1 : FVec Ideal S16x30x512 .f32) (a4 : FVec Ideal S512x512 .f32) (a5 : FVec Ideal S512 .f32)
    (b : Fin 16) (u : Fin 30) (j : Fin 512) :
    Read.val_main_v7 (F := Ideal) a1 a4 a5 (ix3 b u j) = Joiner.proj (Joiner.rowOf a1 b u) a4 a5 j := by
  have e1 : ∀ d : Fin 512, Read.lidx_main_v4 (ix3 b u j) d = ix3 b u d := fun d => funext fun a => Fin.ext (by
    match a with
    | ⟨0, _⟩ => rfl
    | ⟨1, _⟩ => rfl
    | ⟨2, _⟩ => rfl)
  have e2 : ∀ d : Fin 512, Read.ridx_main_v4 (ix3 b u j) d = ix2 j d := fun d => funext fun a => Fin.ext (by
    match a with
    | ⟨0, _⟩ => rfl
    | ⟨1, _⟩ => rfl)
  have e3 : Read.idx_main_v5 (Read.idx_main_v6 (ix3 b u j)) = ix1 j := funext fun a => Fin.ext (by
    match a with
    | ⟨0, _⟩ => rfl)
  rw [Read.val_main_v7_apply, Read.val_main_v4_apply, Read.val_main_v6_apply, Read.val_main_v5_apply, e3]
  simp only [e1, e2, Ideal.addf_def]
  rfl

/-- Stage 12 (the joined features) at (b,t,u,j): the encoder's projection at (b,t,j) plus the decoder's at (b,u,j). -/
theorem v12_at (a0 : FVec Ideal S16x300x512 .f32) (a1 : FVec Ideal S16x30x512 .f32) (a2 : FVec Ideal S512x512 .f32)
    (a3 : FVec Ideal S512 .f32) (a4 : FVec Ideal S512x512 .f32) (a5 : FVec Ideal S512 .f32)
    (b : Fin 16) (t : Fin 300) (u : Fin 30) (j : Fin 512) :
    Read.val_main_v12 (F := Ideal) a0 a1 a2 a3 a4 a5 (ix4 b t u j)
      = Joiner.proj (Joiner.rowOf a0 b t) a2 a3 j + Joiner.proj (Joiner.rowOf a1 b u) a4 a5 j := by
  have e1 : Read.idx_main_v8 (Read.idx_main_v10 (ix4 b t u j)) = ix3 b t j := funext fun a => Fin.ext (by
    match a with
    | ⟨0, _⟩ => rfl
    | ⟨1, _⟩ => rfl
    | ⟨2, _⟩ => rfl)
  have e2 : Read.idx_main_v9 (Read.idx_main_v11 (ix4 b t u j)) = ix3 b u j := funext fun a => Fin.ext (by
    match a with
    | ⟨0, _⟩ => rfl
    | ⟨1, _⟩ => rfl
    | ⟨2, _⟩ => rfl)
  rw [Read.val_main_v12_apply, Read.val_main_v10_apply, Read.val_main_v8_apply, e1, Read.val_main_v11_apply,
    Read.val_main_v9_apply, e2, v3_at, v7_at]
  rfl

/-- THE REFERENCE IS `refG`: its last stage, as a function of the eight argument arrays, is the specification's. -/
theorem ref_eq (a0 : FVec Ideal S16x300x512 .f32) (a1 : FVec Ideal S16x30x512 .f32) (a2 : FVec Ideal S512x512 .f32)
    (a3 : FVec Ideal S512 .f32) (a4 : FVec Ideal S512x512 .f32) (a5 : FVec Ideal S512 .f32)
    (a6 : FVec Ideal S500x512 .f32) (a7 : FVec Ideal S500 .f32) :
    Read.val_main_v16 (F := Ideal) a0 a1 a2 a3 a4 a5 a6 a7 = Joiner.refG a0 a1 a2 a3 a4 a5 a6 a7 := by
  funext i
  obtain ⟨b, t, u, v, rfl⟩ : ∃ (b : Fin 16) (t : Fin 300) (u : Fin 30) (v : Fin 500), i = ix4 b t u v :=
    ⟨i 0, i 1, i 2, i 3, eq_ix4 i⟩
  have e1 : ∀ k : Fin 512, Read.lidx_main_v13 (ix4 b t u v) k = ix4 b t u k := fun k => funext fun a => Fin.ext (by
    match a with
    | ⟨0, _⟩ => rfl
    | ⟨1, _⟩ => rfl
    | ⟨2, _⟩ => rfl
    | ⟨3, _⟩ => rfl)
  have e2 : ∀ k : Fin 512, Read.ridx_main_v13 (ix4 b t u v) k = ix2 v k := fun k => funext fun a => Fin.ext (by
    match a with
    | ⟨0, _⟩ => rfl
    | ⟨1, _⟩ => rfl)
  have e3 : Read.idx_main_v14 (Read.idx_main_v15 (ix4 b t u v)) = ix1 v := funext fun a => Fin.ext (by
    match a with
    | ⟨0, _⟩ => rfl)
  rw [Read.val_main_v16_apply, Read.val_main_v13_apply, Read.val_main_v15_apply, Read.val_main_v14_apply, e3]
  simp only [e1, e2, v12_at, Ideal.addf_def]
  rfl

/-- The reference's run with the specification as its result: from any memory with zero counters every weakly fair
    execution terminates with the result buffer at `refG` of the argument arrays, the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v16) = Joiner.refG (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((Read.val_main_v16_eq _ _ _ _ _ _ _ _).trans (ref_eq _ _ _ _ _ _ _ _)), (h c).2⟩)
    (Cert.ReferenceIdeal.Value.run (F := Ideal) m' g')

/-- The reference's frame claim: the run, its result forgotten. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Joiner.RefSide

end
-- ==== Proof.Finite.lean ====
/-
  The precondition makes every argument array an array of real numbers.

  The precondition is one bit: the conjunction, over the eight argument arrays, of "every entry x has |x| < +∞", each
  an "and"-reduction of the entrywise comparison. The bit being 1 gives each conjunct (an "and" of two bits is 1 only
  if both are), each conjunct gives the comparison at every index (an "and"-reduction into one result that is 1 met
  only 1s), and on the extended reals |x| = max x (−x) is below +∞ exactly when x is neither +∞ nor −∞, that is, a real.
-/
import proofs.«135892_j6803228197541_2_alg».proof.Defs
import proofs.«135892_j6803228197541_2_alg».proof.Proof.Spec
import proofs.«135892_j6803228197541_2_alg».proof.Proof.Gen.KernelIdeal
import proofs.«135892_j6803228197541_2_alg».proof.Proof.Gen.Pre_finite_inputs
import Idealize.ShloMosaic.Lib.ReduceAll

noncomputable section

open Idealize.ShloMosaic Idealize.SL.Sem Idealize.ShloMosaic.ValueIdx

namespace Joiner.Finiteness

/-- The scalar shape has one index. -/
instance : Subsingleton Cert.Pre_finite_inputs.S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- An extended real whose absolute value compares below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < Ideal.ofBits .f32 0x7F800000#32)) = 1#1 := h
  rw [inf_word] at h'
  induction x using EReal.rec with
  | bot => simp at h'
  | top => simp at h'
  | coe r => exact ⟨r, rfl⟩

/-- Under the precondition every argument array holds real numbers only, on every device. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Joiner.Finite (m ((c.tc : Thread Cert.KernelIdeal.nD Cert.KernelIdeal.τ).loc Cert.KernelIdeal.main_arg0))
    ∧ Joiner.Finite (m ((c.tc : Thread Cert.KernelIdeal.nD Cert.KernelIdeal.τ).loc Cert.KernelIdeal.main_arg1))
    ∧ Joiner.Finite (m ((c.tc : Thread Cert.KernelIdeal.nD Cert.KernelIdeal.τ).loc Cert.KernelIdeal.main_arg2))
    ∧ Joiner.Finite (m ((c.tc : Thread Cert.KernelIdeal.nD Cert.KernelIdeal.τ).loc Cert.KernelIdeal.main_arg3))
    ∧ Joiner.Finite (m ((c.tc : Thread Cert.KernelIdeal.nD Cert.KernelIdeal.τ).loc Cert.KernelIdeal.main_arg4))
    ∧ Joiner.Finite (m ((c.tc : Thread Cert.KernelIdeal.nD Cert.KernelIdeal.τ).loc Cert.KernelIdeal.main_arg5))
    ∧ Joiner.Finite (m ((c.tc : Thread Cert.KernelIdeal.nD Cert.KernelIdeal.τ).loc Cert.KernelIdeal.main_arg6))
    ∧ Joiner.Finite (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => real_of_abs_lt _ (Host.reduce_andi_all _ _ _ _ _ e7 i)⟩

end Joiner.Finiteness

end
-- ==== Proof.Algebra.lean ====
/-
  The algebraic law of the joiner.

  With E j and D j the two projected rows, the kernel forms  Σ_j E j · W[v,j] + Σ_j D j · W[v,j]  and the reference
  Σ_j (E j + D j) · W[v,j].  Where every entry is a real number these agree: a product distributes over a sum of reals,
  and a finite sum of termwise sums is the sum of the two sums.  On the extended reals distributivity can fail at
  infinite entries (for w < 0: (∞ + (−∞))·w = (−∞)·w = ∞, while ∞·w + (−∞)·w = (−∞) + ∞ = −∞), so every array is assumed
  to hold real numbers only; a projected row of real arrays is then again a row of real numbers (a finite sum of products of reals plus a real).
-/
import proofs.«135892_j6803228197541_2_alg».proof.Proof.Spec

noncomputable section

open Idealize.ShloMosaic Idealize.ShloMosaic.ValueIdx
open scoped BigOperators

namespace Joiner

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A projected row of real arrays holds real numbers only. -/
theorem proj_finite {x : Fin 512 → EReal} {W : (⟨2, ![512, 512]⟩ : Shape).Idx → EReal}
    {b : (⟨1, ![512]⟩ : Shape).Idx → EReal} (hx : Finite x) (hW : Finite W) (hb : Finite b) :
    Finite (proj x W b) := by
  choose fx hfx using (hx : ∀ i, ∃ r : ℝ, x i = (r : EReal))
  choose fW hfW using (hW : ∀ i, ∃ r : ℝ, W i = (r : EReal))
  choose fb hfb using (hb : ∀ i, ∃ r : ℝ, b i = (r : EReal))
  intro j
  refine ⟨(∑ d : Fin 512, fx d * fW (ix2 j d)) + fb (ix1 j), ?_⟩
  unfold proj
  rw [EReal.coe_add, coe_sum, hfb]
  refine congrArg (· + (fb (ix1 j) : EReal)) (Finset.sum_congr rfl fun d _ => ?_)
  rw [hfx, hfW, EReal.coe_mul]

/-- Over real entries, the vocabulary product of a sum of two rows is the sum of the two vocabulary products. -/
theorem vocab_add {E D : Fin 512 → EReal} {Wo : (⟨2, ![500, 512]⟩ : Shape).Idx → EReal}
    (hE : Finite E) (hD : Finite D) (hWo : Finite Wo) (v : Fin 500) :
    vocab (fun j => E j + D j) Wo v = vocab E Wo v + vocab D Wo v := by
  choose e he using (hE : ∀ i, ∃ r : ℝ, E i = (r : EReal))
  choose d hd using (hD : ∀ i, ∃ r : ℝ, D i = (r : EReal))
  choose w hw using (hWo : ∀ i, ∃ r : ℝ, Wo i = (r : EReal))
  unfold vocab
  rw [← Finset.sum_add_distrib]
  refine Finset.sum_congr rfl fun j _ => ?_
  show (E j + D j) * Wo (ix2 v j) = E j * Wo (ix2 v j) + D j * Wo (ix2 v j)
  rw [he, hd, hw, ← EReal.coe_add, ← EReal.coe_mul, ← EReal.coe_mul, ← EReal.coe_mul, ← EReal.coe_add, add_mul]

/-- THE LAW, one logit: on real entries the kernel's arrangement and the reference's give the same number. -/
theorem kerRow_eq_refRow {xe xd : Fin 512 → EReal}
    {We : (⟨2, ![512, 512]⟩ : Shape).Idx → EReal} {be : (⟨1, ![512]⟩ : Shape).Idx → EReal}
    {Wd : (⟨2, ![512, 512]⟩ : Shape).Idx → EReal} {bd : (⟨1, ![512]⟩ : Shape).Idx → EReal}
    {Wo : (⟨2, ![500, 512]⟩ : Shape).Idx → EReal} {bo : (⟨1, ![500]⟩ : Shape).Idx → EReal}
    (hxe : Finite xe) (hxd : Finite xd) (hWe : Finite We) (hbe : Finite be) (hWd : Finite Wd) (hbd : Finite bd)
    (hWo : Finite Wo) (hbo : Finite bo) (v : Fin 500) :
    kerRow xe xd We be Wd bd Wo bo v = refRow xe xd We be Wd bd Wo bo v := by
  unfold kerRow refRow
  rw [vocab_add (proj_finite hxe hWe hbe) (proj_finite hxd hWd hbd) hWo v]

/-- A row of an array of real numbers holds real numbers. -/
theorem rowOf_finite {n0 n1 : Nat} {x : (⟨3, ![n0, n1, 512]⟩ : Shape).Idx → EReal} (hx : Finite x) (b : Fin n0) (t : Fin n1) :
    Finite (rowOf x b t) := fun d => hx (ix3 b t d)

/-- THE LAW, the whole array: on real arguments the kernel's result function is the reference's. -/
theorem kerG_eq_refG {enc : (⟨3, ![16, 300, 512]⟩ : Shape).Idx → EReal} {dec : (⟨3, ![16, 30, 512]⟩ : Shape).Idx → EReal}
    {We : (⟨2, ![512, 512]⟩ : Shape).Idx → EReal} {be : (⟨1, ![512]⟩ : Shape).Idx → EReal}
    {Wd : (⟨2, ![512, 512]⟩ : Shape).Idx → EReal} {bd : (⟨1, ![512]⟩ : Shape).Idx → EReal}
    {Wo : (⟨2, ![500, 512]⟩ : Shape).Idx → EReal} {bo : (⟨1, ![500]⟩ : Shape).Idx → EReal}
    (henc : Finite enc) (hdec : Finite dec) (hWe : Finite We) (hbe : Finite be) (hWd : Finite Wd) (hbd : Finite bd)
    (hWo : Finite Wo) (hbo : Finite bo) :
    kerG enc dec We be Wd bd Wo bo = refG enc dec We be Wd bd Wo bo := by
  funext i
  unfold kerG refG
  exact kerRow_eq_refRow (rowOf_finite henc _ _) (rowOf_finite hdec _ _) hWe hbe hWd hbd hWo hbo _

end Joiner

end
-- ==== Proof.lean ====
/-
  The certificate of the transducer joiner kernel against its jnp reference.

  Both programs compute, for every batch entry b, encoder frame t, decoder position u and vocabulary entry v,
  a logit from the projected encoder frame E = enc[b,t,:]·W_encᵀ + b_enc and the projected decoder position
  D = dec[b,u,:]·W_decᵀ + b_dec. The reference forms (E + D)·W_outᵀ + b_out; the kernel forms
  E·W_outᵀ + D·W_outᵀ + b_out, on blocks of 152 frames. On the extended reals the two agree when every input is
  a real number, which the precondition says: a product distributes over a finite sum of reals.

  The frames: each program runs to the end, faults nowhere and leaves its arguments unchanged — the word-level
  kernel through the body's triple with nothing said of the result, the idealized kernel through the same triple with
  the result named, the reference through its run. No operation of the kernel was rewritten on the way to the
  idealized program, so that conjunct is trivial.
-/
import proofs.«135892_j6803228197541_2_alg».proof.Defs
import proofs.«135892_j6803228197541_2_alg».proof.Proof.Gen.Kernel
import proofs.«135892_j6803228197541_2_alg».proof.Proof.Gen.KernelIdeal
import proofs.«135892_j6803228197541_2_alg».proof.Proof.Gen.ReferenceIdeal
import proofs.«135892_j6803228197541_2_alg».proof.Proof.Gen.Pre_finite_inputs
import proofs.«135892_j6803228197541_2_alg».proof.Proof.FrameK
import proofs.«135892_j6803228197541_2_alg».proof.Proof.RunI
import proofs.«135892_j6803228197541_2_alg».proof.Proof.RefSide
import proofs.«135892_j6803228197541_2_alg».proof.Proof.Finite
import proofs.«135892_j6803228197541_2_alg».proof.Proof.Algebra
import Idealize.ShloMosaic.Adequacy
import Idealize.ShloMosaic.Init

noncomputable section

namespace Cert.Proof

open Idealize.ShloMosaic Idealize.SL.Sem

/-- The word-level kernel's frame. -/
theorem frame_k : Cert.frame_Kernel (hKernel := Cert.Kernel.Gen.facts) (hPre_finite_inputs := Cert.Pre_finite_inputs.Gen.facts) :=
  fun m ρ _ => Cert.Kernel.Body.frame (F := Bits) m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The ideal pass rewrote nothing. -/
theorem preserves : Cert.preserves_Kernel_KernelIdeal := trivial

/-- The two idealized programs, run from memories that agree on the arguments, end with the same result array: the
    kernel's is `kerG` of the arguments, the reference's `refG` of them, and the two are one function where every
    argument entry is a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Body.run_named m ρ, ?_⟩
  refine (θ_run Cert.ReferenceIdeal.defs _ _).mono (fun _ h c => ⟨(h c).1.trans ?_, (h c).2⟩) (Joiner.RefSide.run m' ρ')
  obtain ⟨f0, f1, f2, f3, f4, f5, f6, f7⟩ := Joiner.Finiteness.finite_of_pre m hpre c
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Joiner.kerG_eq_refG f0 f1 f2 f3 f4 f5 f6 f7).symm

theorem claim : Cert.Claim :=
  ⟨Cert.Kernel.Gen.facts, Cert.KernelIdeal.Gen.facts, Cert.ReferenceIdeal.Gen.facts, Cert.Pre_finite_inputs.Gen.facts,
    frame_k, frame_ki, Joiner.RefSide.frame_ri, preserves, algebraic⟩

end Cert.Proof

end
